-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S640000 : Shape := ⟨1, ![640000]⟩
abbrev S128x256 : Shape := ⟨2, ![128, 256]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S40000x128 .f32) (main_arg1 : IVec S2x640000 32) (main_arg2 : FVec F S640000 .f32) (main_arg3 : FVec F S128x256 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S40000x128 : Shape := ⟨2, ![40000, 128]⟩
abbrev S2x640000 : Shape := ⟨2, ![2, 640000]⟩
abbrev S640000 : Shape := ⟨1, ![640000]⟩
abbrev S128x256 : Shape := ⟨2, ![128, 256]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S128x128 : Shape := ⟨2, ![128, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 43
  | .vmem => 11
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x256, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000, .f32⟩
  | .hbm, ⟨20, _⟩ => ⟨S640000x1, .i32⟩
  | .hbm, ⟨21, _⟩ => ⟨S40000, .f32⟩
  | .hbm, ⟨22, _⟩ => ⟨S640000x1, .f32⟩
  | .hbm, ⟨23, _⟩ => ⟨S640000x128, .f32⟩
  | .hbm, ⟨24, _⟩ => ⟨S640000x128, .f32⟩
  | .hbm, ⟨25, _⟩ => ⟨S_, .f32⟩
  | .hbm, ⟨26, _⟩ => ⟨S40000x128, .f32⟩
  | .hbm, ⟨27, _⟩ => ⟨S640000x1, .i32⟩
  | .hbm, ⟨28, _⟩ => ⟨S40000x128, .f32⟩
  | .hbm, ⟨29, _⟩ => ⟨S_, .f32⟩
  | .hbm, ⟨30, _⟩ => ⟨S_, .f32⟩
  | .hbm, ⟨31, _⟩ => ⟨S40000, .f32⟩
  | .hbm, ⟨32, _⟩ => ⟨S40000, .f32⟩
  | .hbm, ⟨33, _⟩ => ⟨S_, .f32⟩
  | .hbm, ⟨34, _⟩ => ⟨S40000, .f32⟩
  | .hbm, ⟨35, _⟩ => ⟨S40000, .f32⟩
  | .hbm, ⟨36, _⟩ => ⟨S40000x1, .f32⟩
  | .hbm, ⟨37, _⟩ => ⟨S128x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000 : S_.BroadcastsInDim S40000 (![] : Fin 0 → Fin S40000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S40000_S40000x1 : S40000.ShapeCasts S40000x1
  slices_S128x256_S128x128_0_0 : S128x256.Slices ![0, 0] S128x128
  transposes_S128x128_S128x128_1_0 : S128x128.Transposes [1, 0] S128x128
  slices_S128x256_S128x128_0_128 : S128x256.Slices ![0, 128] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S40000x128_S640000x1_S640000x128_1_0_n_n_0_1_1128_wf : GatherDims.WF S40000x128 S640000x1 S640000x128 [1] [0] [] [0] [] 1 ![1, 128]
  scatter_S40000_S640000x1_S640000_n_0_0_1_wf : ScatterDims.WF S40000 S640000x1 S640000 [] [0] [0] 1
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S40000x128.size a
  hwx0_0 : ∀ i : grid0.Coords, EltTy.bits .f32 = 32 ∨ (Rect.block (s := S40000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S40000x128.size a
  hwx0_1 : ∀ i : grid0.Coords, EltTy.bits .f32 = 32 ∨ (Rect.block (s := S40000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S40000x1.size a
  hwx0_2 : ∀ i : grid0.Coords, EltTy.bits .f32 = 32 ∨ (Rect.block (s := S40000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S40000x128.size a
  hwx0_6 : ∀ i : grid0.Coords, EltTy.bits .f32 = 32 ∨ (Rect.block (s := S40000x128) S5000x128.size (cc0_transform_6 i) (hinb0_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S640000 : Shape := ⟨1, ![640000]⟩
abbrev S128x256 : Shape := ⟨2, ![128, 256]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x256 : Shape := ⟨2, ![40000, 256]⟩
abbrev S256x128 : Shape := ⟨2, ![256, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S640000, .f32⟩
  | .hbm, ⟨3, _⟩ => ⟨S128x256, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000, .f32⟩
  | .hbm, ⟨20, _⟩ => ⟨S640000x1, .i32⟩
  | .hbm, ⟨21, _⟩ => ⟨S40000, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000, .f32⟩
  | .hbm, ⟨31, _⟩ => ⟨S_, .f32⟩
  | .hbm, ⟨32, _⟩ => ⟨S_, .f32⟩
  | .hbm, ⟨33, _⟩ => ⟨S640000, .f32⟩
  | .hbm, ⟨34, _⟩ => ⟨S640000, .f32⟩
  | .hbm, ⟨35, _⟩ => ⟨S640000, .f32⟩
  | .hbm, ⟨36, _⟩ => ⟨S640000x1, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S40000x128, .f32⟩
  | .hbm, ⟨41, _⟩ => ⟨S640000x1, .i32⟩
  | .hbm, ⟨42, _⟩ => ⟨S40000x128, .f32⟩
  | .hbm, ⟨43, _⟩ => ⟨S40000x256, .f32⟩
  | .hbm, ⟨44, _⟩ => ⟨S256x128, .f32⟩
  | .hbm, ⟨45, _⟩ => ⟨S40000x128, .f32⟩
  | .hbm, ⟨46, _⟩ => ⟨S1x128, .f32⟩
  | .hbm, ⟨47, _⟩ => ⟨S40000x128, .f32⟩
  | .hbm, ⟨48, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000 : S_.BroadcastsInDim S40000 (![] : Fin 0 → Fin S40000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  concatenates_S40000x128_S40000x128_S40000x256_d1 : Shape.Concatenates [S40000x128, S40000x128] S40000x256 1
  transposes_S128x256_S256x128_1_0 : S128x256.Transposes [1, 0] S256x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000_S640000x1_S640000_n_0_0_1_wf : ScatterDims.WF S40000 S640000x1 S640000 [] [0] [0] 1
  gather_S40000_S640000x1_S640000_n_0_n_n_0_1_1_wf : GatherDims.WF S40000 S640000x1 S640000 [] [0] [] [0] [] 1 ![1]
  scatter_S40000x128_S640000x1_S640000x128_1_0_0_1_wf : ScatterDims.WF S40000x128 S640000x1 S640000x128 [1] [0] [0] 1
  dot_S40000x256_S256x128_S40000x128_1_0_0_1_n_n_wf : DotDims.WF S40000x256 S256x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000_S640000x1_S640000_n_0_n_n_0_1_1 : GatherDims S40000 S640000x1 S640000 where
  offsetDims := []
  collapsedSliceDims := [0]
  operandBatchingDims := []
  startIndicesBatchingDims := []
  startIndexMap := [0]
  indexVectorDim := 1
  sliceSizes := ![1]
  wf := gather_S40000_S640000x1_S640000_n_0_n_n_0_1_1_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf

class Facts : Prop extends Facts₀ where

variable [Facts]
-- ==== Proof.Payload.lean ====
/-
  The kernel body's arithmetic at one element of a 5000-row block.

  The body forms, for a block of 5000 node rows,
    x · Wx  +  (agg ∘ inv) · Wagg  +  bias,
  where `agg ∘ inv` scales row `p` of the aggregated block by the row's scalar `inv[p]`, both products are
  5000×128 by 128×128 matrix products into a zero accumulator, and the bias row is added to every row. Over the
  extended reals a change of float format is the identity, so at entry `(p, q)` the payload is
    Σ_k x[p,k]·Wx[k,q]  +  Σ_k (agg[p,k]·inv[p,0])·Wagg[k,q]  +  bias[0,q].
-/
import proofs.«169618_j16492674417005_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Sage.Body

open Cert.KernelIdeal Cert.KernelIdeal.Gen Idealize.ShloMosaic Idealize.ShloMosaic.ValueIdx

/-- The body's matrix product's dimension numbers: rows × contraction times contraction × columns. -/
abbrev mm := dot_S5000x128_S128x128_S5000x128_1_0_0_1_n_n

theorem mm_lhs0 (i : S5000x128.Idx) (q : mm.contr.Idx) : (mm.lhsIdx i q 0).val = (i 0).val := by
  unfold DotDims.lhsIdx
  rw [dif_neg (show ¬(0 : Fin S5000x128.rank) ∈ mm.lhsBatch by decide), dif_pos (show (0 : Fin S5000x128.rank) ∈ mm.lhsNonContracting by decide)]
  rfl
theorem mm_lhs1 (i : S5000x128.Idx) (q : mm.contr.Idx) : (mm.lhsIdx i q 1).val = (q ⟨0, by decide⟩).val :=
  mm.lhsIdx_val_of_single rfl i q
theorem mm_rhs0 (i : S5000x128.Idx) (q : mm.contr.Idx) : (mm.rhsIdx i q 0).val = (q ⟨0, by decide⟩).val :=
  mm.rhsIdx_val_of_single rfl i q
theorem mm_rhs1 (i : S5000x128.Idx) (q : mm.contr.Idx) : (mm.rhsIdx i q 1).val = (i 1).val := by
  unfold DotDims.rhsIdx
  rw [dif_neg (show ¬(1 : Fin S128x128.rank) ∈ mm.rhsBatch by decide), dif_pos (show (1 : Fin S128x128.rank) ∈ mm.rhsNonContracting by decide)]
  rfl

/-- A 5000×128 by 128×128 product into the zero accumulator, at entry `(p, q)`: the row of the left factor against the
    column of the right one. -/
theorem matmul_zero_apply {φ₁ φ₂ : FTy} (l : FVec Ideal S5000x128 φ₁) (r : FVec Ideal S128x128 φ₂) (p : Fin 5000) (q : Fin 128) :
    matmul mm none l r (constant (F := Ideal) S5000x128 .f32 0x00000000#32) (ix2 p q) = ∑ k : Fin 128, l (ix2 p k) * r (ix2 k q) := by
  simp only [matmul]
  rw [Ideal.matmul_constant_zero_apply, ← Equiv.sum_comp (contrEquiv1 mm 128 rfl rfl).symm]
  refine Finset.sum_congr rfl fun k _ => ?_
  have hk := contrEquiv1_symm_val mm 128 rfl rfl k
  have el : mm.lhsIdx (ix2 p q) ((contrEquiv1 mm 128 rfl rfl).symm k) = ix2 p k := funext fun a => Fin.ext (by
    match a with
    | ⟨0, _⟩ => exact mm_lhs0 _ _
    | ⟨1, _⟩ => exact (mm_lhs1 _ _).trans hk)
  have er : mm.rhsIdx (ix2 p q) ((contrEquiv1 mm 128 rfl rfl).symm k) = ix2 k q := funext fun a => Fin.ext (by
    match a with
    | ⟨0, _⟩ => exact (mm_rhs0 _ _).trans hk
    | ⟨1, _⟩ => exact mm_rhs1 _ _)
  rw [el, er]

/-- A column `[a, 1]` broadcast along the second axis reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE PAYLOAD AT `(p, q)`. -/
theorem pay_apply (v0 v2 : Vec Ideal S5000x128 .f32) (v4 : Vec Ideal S5000x1 .f32) (v9 v12 : Vec Ideal S128x128 .f32)
    (v18 : Vec Ideal S1x128 .f32) (p : Fin 5000) (q : Fin 128) :
    k0_pay1 (F := Ideal) v0 v2 v4 v9 v12 v18 (ix2 p q)
      = ((∑ k : Fin 128, v0 (ix2 p k) * v9 (ix2 k q)) + (∑ k : Fin 128, (v2 (ix2 p k) * v4 (ix2 p (0 : Fin 1))) * v12 (ix2 k q)))
        + v18 (ix2 (0 : Fin 1) q) := by
  unfold k0_pay1
  simp only [shapeCast_self]
  rw [addf_apply, addf_apply, matmul_zero_apply, matmul_zero_apply, broadcastTo_1b_ab_apply]
  simp only [truncf_apply, mulf_apply, broadcastTo_a1_ab_apply]

end Cert.Sage.Body

end
-- ==== Proof.HostStages.lean ====
/-
  The arrays the kernel's region finds in the operands the host computed for it, as functions of the program's arguments.

  Before the region the host gathers a source row per edge (`msgs`), sums the edge weights per destination node
  (`wsum`), sums the weighted source rows per destination node WITHOUT normalising (`aggU`), forms each node's
  reciprocal normaliser `1 / max(1e-8, wsum[n])` as a column (`inv2`), cuts the weight matrix into its two 128-column
  halves and transposes each (`wx`, `wagg`), and lays the bias out as one row (`b2`).
-/
import proofs.«169618_j16492674417005_2_alg».proof.Proof.Gen.KernelIdeal.Frame
import Idealize.ShloMosaic.Lib.StableHlo.Run
import Idealize.ShloMosaic.Lib.Pipeline.Value
import Idealize.ShloMosaic.PureOps.Ideal

noncomputable section

namespace Cert.Sage.Host

open Cert.KernelIdeal Cert.KernelIdeal.Gen Idealize.ShloMosaic Idealize.ShloMosaic.TcCoe Idealize.SL.Sem Idealize.ShloMosaic.StableHlo

/-- Row 1 of the edge list as a column: each edge's destination node, as given. -/
def dstCol (x1 : IVec S2x640000 32) : IVec S640000x1 32 :=
  broadcastInDim S640000x1 ![0] bcast_S640000_S640000x1_0
    (shapeCast S640000 (extractStridedSlice S1x640000 ![1, 0] x1 slices_S2x640000_S1x640000_1_0) shapeCasts_S1x640000_S640000)

/-- Row 0 of the edge list: each edge's source node, as given. -/
def srcRow (x1 : IVec S2x640000 32) : IVec S640000 32 :=
  shapeCast S640000 (extractStridedSlice S1x640000 ![0, 0] x1 slices_S2x640000_S1x640000_0_0) shapeCasts_S1x640000_S640000

/-- The sources as a column, a negative one counted from the end (plus 40000). -/
def srcCol (x1 : IVec S2x640000 32) : IVec S640000x1 32 :=
  broadcastInDim S640000x1 ![0] bcast_S640000_S640000x1_0
    (select (cmpi .slt (srcRow x1) (broadcastInDim S640000 ![] bcast_S_S640000 (constantI S_ 32 0#32)))
      (addi (srcRow x1) (broadcastInDim S640000 ![] bcast_S_S640000 (constantI S_ 32 40000#32))) (srcRow x1))

/-- The source node's feature row, per edge. -/
def msgs (x0 : FVec Ideal S40000x128 .f32) (x1 : IVec S2x640000 32) : FVec Ideal S640000x128 .f32 :=
  Host.gather gather_S40000x128_S640000x1_S640000x128_1_0_n_n_0_1_1128 x0 (srcCol x1)

/-- Each node's total incoming edge weight. -/
def wsum (x1 : IVec S2x640000 32) (x2 : FVec Ideal S640000 .f32) : FVec Ideal S40000 .f32 :=
  Host.scatterAdd scatter_S40000_S640000x1_S640000_n_0_0_1
    (broadcastInDim S40000 ![] bcast_S_S40000 (constant (F := Ideal) S_ .f32 0x00000000#32)) (dstCol x1) x2

/-- The per-edge rows that are summed per destination: the edge's weight times its source row. -/
def weighted (x0 : FVec Ideal S40000x128 .f32) (x1 : IVec S2x640000 32) (x2 : FVec Ideal S640000 .f32) : FVec Ideal S640000x128 .f32 :=
  mulf (broadcastInDim S640000x128 ![0, 1] bcast_S640000x1_S640000x128_0_1 (broadcastInDim S640000x1 ![0] bcast_S640000_S640000x1_0 x2))
    (msgs x0 x1)

/-- Each node's weighted sum of its incoming source rows, not normalised. -/
def aggU (x0 : FVec Ideal S40000x128 .f32) (x1 : IVec S2x640000 32) (x2 : FVec Ideal S640000 .f32) : FVec Ideal S40000x128 .f32 :=
  Host.scatterAdd scatter_S40000x128_S640000x1_S640000x128_1_0_0_1
    (broadcastInDim S40000x128 ![] bcast_S_S40000x128 (constant (F := Ideal) S_ .f32 0x00000000#32)) (dstCol x1) (weighted x0 x1 x2)

/-- Each node's normaliser: its total incoming weight, floored at the smallest admitted value. -/
def floorW (x1 : IVec S2x640000 32) (x2 : FVec Ideal S640000 .f32) : FVec Ideal S40000 .f32 :=
  maximumf (broadcastInDim S40000 ![] bcast_S_S40000 (id (constant (F := Ideal) S_ .f32 0x322BCC77#32))) (wsum x1 x2)

/-- One over each node's normaliser, as a column. -/
def inv2 (x1 : IVec S2x640000 32) (x2 : FVec Ideal S640000 .f32) : FVec Ideal S40000x1 .f32 :=
  shapeCast S40000x1
    (Host.divf (F := Ideal) (broadcastInDim S40000 ![] bcast_S_S40000 (constant (F := Ideal) S_ .f32 0x3F800000#32)) (floorW x1 x2))
    shapeCasts_S40000_S40000x1

/-- The left half of the weight matrix's columns, transposed. -/
def wx (x3 : FVec Ideal S128x256 .f32) : FVec Ideal S128x128 .f32 :=
  transpose S128x128 [1, 0] (extractStridedSlice S128x128 ![0, 0] x3 slices_S128x256_S128x128_0_0) transposes_S128x128_S128x128_1_0

/-- The right half of the weight matrix's columns, transposed. -/
def wagg (x3 : FVec Ideal S128x256 .f32) : FVec Ideal S128x128 .f32 :=
  transpose S128x128 [1, 0] (extractStridedSlice S128x128 ![0, 128] x3 slices_S128x256_S128x128_0_128) transposes_S128x128_S128x128_1_0

/-- The bias as one row. -/
def b2 (x4 : FVec Ideal S128 .f32) : FVec Ideal S1x128 .f32 := shapeCast S1x128 x4 shapeCasts_S128_S1x128

variable (m : (ℓ : Loc nD τ sig) → Buf (Elt Ideal) ℓ)

/-- The arguments as the region's core `c` holds them at launch. -/
abbrev a0 (c : Dev nD) : FVec Ideal S40000x128 .f32 := m ((c : Thread nD τ).loc main_arg0)
abbrev a1 (c : Dev nD) : IVec S2x640000 32 := m ((c : Thread nD τ).loc main_arg1)
abbrev a2 (c : Dev nD) : FVec Ideal S640000 .f32 := m ((c : Thread nD τ).loc main_arg2)
abbrev a3 (c : Dev nD) : FVec Ideal S128x256 .f32 := m ((c : Thread nD τ).loc main_arg3)
abbrev a4 (c : Dev nD) : FVec Ideal S128 .f32 := m ((c : Thread nD τ).loc main_arg4)

local macro "host_stage" : tactic => `(tactic| (
  dsimp only [Gen.V]
  simp only [Gen.hostOps0, Gen.hostOps0_1, Gen.hostOps0_2, List.flatten_cons, List.flatten_nil, List.append_nil, List.cons_append,
    List.nil_append]
  after_results
  rfl))

set_option maxHeartbeats 4000000 in
theorem V_aggU (c : Dev nD) : (V m c main_v19 : S40000x128.Idx → EReal) = aggU (a0 m c) (a1 m c) (a2 m c) := by host_stage
theorem V_inv2 (c : Dev nD) : (V m c main_v23 : S40000x1.Idx → EReal) = inv2 (a1 m c) (a2 m c) := by host_stage
theorem V_wx (c : Dev nD) : (V m c main_v25 : S128x128.Idx → EReal) = wx (a3 m c) := by host_stage
theorem V_wagg (c : Dev nD) : (V m c main_v27 : S128x128.Idx → EReal) = wagg (a3 m c) := by host_stage
theorem V_b2 (c : Dev nD) : (V m c main_v28 : S1x128.Idx → EReal) = b2 (a4 m c) := by host_stage

end Cert.Sage.Host

end
-- ==== Proof.Spec.lean ====
/-
  The linear layer of a mean-aggregating graph convolution, as ONE function of whole arrays over the extended reals.

  A node's output row is its own feature row times the first half of the weight matrix's columns, plus its aggregated
  neighbour row times the second half, plus the bias:
    out[n, o] = Σ_{k < 128} x[n, k] · W[o, k]  +  Σ_{k < 128} agg[n, k] · W[o, 128 + k]  +  b[o].
  Both programs compute this function; they differ in how `agg` is produced (where the division by a node's total
  incoming edge weight is placed), which is the subject of the other modules.
-/
import Idealize.ShloMosaic.PureOps.Ideal
import Idealize.ShloMosaic.Lib.ValueIdx

noncomputable section

open scoped BigOperators

namespace Cert.Sage

open Idealize.ShloMosaic Idealize.ShloMosaic.ValueIdx

/-- Column `k` of the left half of a 256-wide row. -/
abbrev lo (k : Fin 128) : Fin 256 := ⟨k.val, by omega⟩
/-- Column `k` of the right half of a 256-wide row. -/
abbrev hi (k : Fin 128) : Fin 256 := ⟨128 + k.val, by omega⟩

/-- `out[n, o] = Σ_k x[n, k] · W[o, k] + Σ_k agg[n, k] · W[o, 128 + k] + b[o]`. -/
def linear (x agg : (⟨2, ![40000, 128]⟩ : Shape).Idx → EReal) (W : (⟨2, ![128, 256]⟩ : Shape).Idx → EReal)
    (b : (⟨1, ![128]⟩ : Shape).Idx → EReal) : (⟨2, ![40000, 128]⟩ : Shape).Idx → EReal :=
  fun i => ((∑ k : Fin 128, x (ix2 (i 0) k) * W (ix2 (i 1) (lo k)))
      + (∑ k : Fin 128, agg (ix2 (i 0) k) * W (ix2 (i 1) (hi k)))) + b (ix1 (i 1))

/-- The layer depends on the aggregated rows only through their entries. -/
theorem linear_congr {x agg agg' : (⟨2, ![40000, 128]⟩ : Shape).Idx → EReal} {W : (⟨2, ![128, 256]⟩ : Shape).Idx → EReal}
    {b : (⟨1, ![128]⟩ : Shape).Idx → EReal} (h : ∀ (n : Fin 40000) (k : Fin 128), agg (ix2 n k) = agg' (ix2 n k)) :
    linear x agg W b = linear x agg' W b := by
  funext i
  unfold linear
  have e : ∀ k : Fin 128, agg (ix2 (i 0) k) = agg' (ix2 (i 0) k) := fun k => h (i 0) k
  simp only [e]

end Cert.Sage

end
-- ==== Proof.Blocks.lean ====
/-
  What each grid point is handed, and one element of what it computes.

  The grid has 8 points; point `t` works on node rows `5000·t … 5000·t + 4999`: it is handed those rows of the feature
  array, of the unnormalised aggregate and of the reciprocal-normaliser column, and (at every point) the whole of the two
  transposed weight halves and the bias row. Each handed block is read here where it sits in its array, and the body's
  arithmetic at one element is identified with the linear layer at the corresponding node row and output column.
-/
import proofs.«169618_j16492674417005_2_alg».proof.Proof.Gen.KernelIdeal.Value
import proofs.«169618_j16492674417005_2_alg».proof.Proof.Payload
import proofs.«169618_j16492674417005_2_alg».proof.Proof.HostStages
import proofs.«169618_j16492674417005_2_alg».proof.Proof.Spec
import Idealize.ShloMosaic.Lib.Pipeline.Value
import Idealize.ShloMosaic.Lib.ValueLayout

noncomputable section

open scoped BigOperators

namespace Cert.Sage.Kernel

open Cert.KernelIdeal Cert.KernelIdeal.Gen Cert.KernelIdeal.Value Cert.Sage.Host Cert.Sage.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Each node's unnormalised aggregated row times the node's reciprocal normaliser. -/
def aggN (x0 : FVec Ideal S40000x128 .f32) (x1 : IVec S2x640000 32) (x2 : FVec Ideal S640000 .f32) : S40000x128.Idx → EReal :=
  fun i => aggU x0 x1 x2 i * inv2 x1 x2 (ix2 (⟨(i 0).val, idx2_lt0 i⟩ : Fin 40000) (0 : Fin 1))

/-- The array the kernel's result ends holding. -/
def result (c : Dev nD) : S40000x128.Idx → EReal :=
  Cert.Sage.linear (a0 m c) (aggN (a0 m c) (a1 m c) (a2 m c)) (a3 m c) (a4 m c)

theorem hz : (![0, 0] : Fin 2 → Nat) = fun _ => 0 := funext fun a => by fin_cases a <;> rfl

/-- The index maps over the 8 grid points: the three row-blocked inputs move with the output (block row = the point),
    the two weight halves and the bias stay at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Each handed block, read where it sits in its array -/

/-- The feature block at point `t` is rows `5000·t …` of the feature array. -/
theorem iblk0_apply (c : Dev nD) (t : Fin cfg0.N) (x : S5000x128.Idx) (j : S40000x128.Idx)
    (h0 : (j 0).val = win0_6.index t (0 : Fin 2) * 5000 + (x 0).val) (h1 : (j 1).val = (x 1).val) :
    (iblk m c 0 t : Vec Ideal S5000x128 .f32) x = a0 m c j := by
  obtain ⟨e0, e1, -⟩ := idx_facts t
  unfold iblk
  rw [View.read_apply]
  show V m c main_arg0 _ = _
  rw [V_main_arg0 m c]
  congr 1
  funext a
  apply Fin.ext
  match a with
  | ⟨0, _⟩ => show win0_0.index t (0 : Fin 2) * 5000 + 1 * (x 0).val = (j 0).val; omega
  | ⟨1, _⟩ => show win0_0.index t (1 : Fin 2) * 128 + 1 * (x 1).val = (j 1).val; omega

/-- The aggregate block at point `t` is rows `5000·t …` of the unnormalised aggregate. -/
theorem iblk1_apply (c : Dev nD) (t : Fin cfg0.N) (x : S5000x128.Idx) (j : S40000x128.Idx)
    (h0 : (j 0).val = win0_6.index t (0 : Fin 2) * 5000 + (x 0).val) (h1 : (j 1).val = (x 1).val) :
    (iblk m c 1 t : Vec Ideal S5000x128 .f32) x = aggU (a0 m c) (a1 m c) (a2 m c) j := by
  obtain ⟨-, -, e0, e1, -⟩ := idx_facts t
  unfold iblk
  rw [View.read_apply]
  show (V m c main_v19 : S40000x128.Idx → EReal) _ = _
  rw [V_aggU m c]
  congr 1
  funext a
  apply Fin.ext
  match a with
  | ⟨0, _⟩ => show win0_1.index t (0 : Fin 2) * 5000 + 1 * (x 0).val = (j 0).val; omega
  | ⟨1, _⟩ => show win0_1.index t (1 : Fin 2) * 128 + 1 * (x 1).val = (j 1).val; omega

/-- The normaliser block at point `t` is rows `5000·t …` of the reciprocal-normaliser column. -/
theorem iblk2_apply (c : Dev nD) (t : Fin cfg0.N) (x : S5000x1.Idx) (j : S40000x1.Idx)
    (h0 : (j 0).val = win0_6.index t (0 : Fin 2) * 5000 + (x 0).val) (h1 : (j 1).val = (x 1).val) :
    (iblk m c 2 t : Vec Ideal S5000x1 .f32) x = inv2 (a1 m c) (a2 m c) j := by
  obtain ⟨-, -, -, -, e0, e1, -⟩ := idx_facts t
  unfold iblk
  rw [View.read_apply]
  show (V m c main_v23 : S40000x1.Idx → EReal) _ = _
  rw [V_inv2 m c]
  congr 1
  funext a
  apply Fin.ext
  match a with
  | ⟨0, _⟩ => show win0_2.index t (0 : Fin 2) * 5000 + 1 * (x 0).val = (j 0).val; omega
  | ⟨1, _⟩ => show win0_2.index t (1 : Fin 2) * 1 + 1 * (x 1).val = (j 1).val; omega

/-- The first weight block is, at every point, the whole transposed left half. -/
theorem iblk3_apply (c : Dev nD) (t : Fin cfg0.N) (x : S128x128.Idx) :
    (iblk m c 3 t : Vec Ideal S128x128 .f32) x = wx (a3 m c) x := by
  obtain ⟨-, -, -, -, -, -, e0, e1, -⟩ := idx_facts t
  unfold iblk
  rw [View.read_apply]
  show (V m c main_v25 : S128x128.Idx → EReal) _ = _
  rw [V_wx m c]
  congr 1
  funext a
  apply Fin.ext
  match a with
  | ⟨0, _⟩ => show win0_3.index t (0 : Fin 2) * 128 + 1 * (x 0).val = (x 0).val; omega
  | ⟨1, _⟩ => show win0_3.index t (1 : Fin 2) * 128 + 1 * (x 1).val = (x 1).val; omega

/-- The second weight block is, at every point, the whole transposed right half. -/
theorem iblk4_apply (c : Dev nD) (t : Fin cfg0.N) (x : S128x128.Idx) :
    (iblk m c 4 t : Vec Ideal S128x128 .f32) x = wagg (a3 m c) x := by
  obtain ⟨-, -, -, -, -, -, -, -, e0, e1, -⟩ := idx_facts t
  unfold iblk
  rw [View.read_apply]
  show (V m c main_v27 : S128x128.Idx → EReal) _ = _
  rw [V_wagg m c]
  congr 1
  funext a
  apply Fin.ext
  match a with
  | ⟨0, _⟩ => show win0_4.index t (0 : Fin 2) * 128 + 1 * (x 0).val = (x 0).val; omega
  | ⟨1, _⟩ => show win0_4.index t (1 : Fin 2) * 128 + 1 * (x 1).val = (x 1).val; omega

/-- The bias block is, at every point, the whole bias row. -/
theorem iblk5_apply (c : Dev nD) (t : Fin cfg0.N) (x : S1x128.Idx) :
    (iblk m c 5 t : Vec Ideal S1x128 .f32) x = b2 (a4 m c) x := by
  obtain ⟨-, -, -, -, -, -, -, -, -, -, e0, e1, -⟩ := idx_facts t
  unfold iblk
  rw [View.read_apply]
  show (V m c main_v28 : S1x128.Idx → EReal) _ = _
  rw [V_b2 m c]
  congr 1
  funext a
  apply Fin.ext
  match a with
  | ⟨0, _⟩ => show win0_5.index t (0 : Fin 2) * 1 + 1 * (x 0).val = (x 0).val; omega
  | ⟨1, _⟩ => show win0_5.index t (1 : Fin 2) * 128 + 1 * (x 1).val = (x 1).val; omega

/-! ## The weight halves and the bias row, read at an index -/

/-- The transposed left half at `(k, o)` is the weight matrix at `(o, k)`. -/
theorem wx_apply (x3 : FVec Ideal S128x256 .f32) (k o : Fin 128) : wx x3 (ix2 k o) = x3 (ix2 o (Cert.Sage.lo k)) := by
  unfold wx
  rw [transpose_ix2_apply]
  exact extractStridedSlice_apply _ _ _ _ _ fun a => match a with
    | ⟨0, _⟩ => by show o.val = 0 + o.val; omega
    | ⟨1, _⟩ => by show k.val = 0 + k.val; omega

/-- The transposed right half at `(k, o)` is the weight matrix at `(o, 128 + k)`. -/
theorem wagg_apply (x3 : FVec Ideal S128x256 .f32) (k o : Fin 128) : wagg x3 (ix2 k o) = x3 (ix2 o (Cert.Sage.hi k)) := by
  unfold wagg
  rw [transpose_ix2_apply]
  exact extractStridedSlice_apply _ _ _ _ _ fun a => match a with
    | ⟨0, _⟩ => by show o.val = 0 + o.val; omega
    | ⟨1, _⟩ => by show 128 + k.val = 128 + k.val; rfl

/-- The bias row at `(0, o)` is the bias at `o`. -/
theorem b2_apply (x4 : FVec Ideal S128 .f32) (o : Fin 128) : b2 x4 (ix2 (0 : Fin 1) o) = x4 (ix1 o) := by
  unfold b2
  exact shapeCast_a_1a_apply x4 _ 0 o

/-! ## One element of one point's block -/

/-- If the six loaded blocks read, along row `p` and column `q`, what the arrays hold along node row `n` and output
    column `o`, the body's payload at `(p, q)` is the linear layer at `(n, o)`. -/
theorem point_eq (v0 v2 : Vec Ideal S5000x128 .f32) (v4 : Vec Ideal S5000x1 .f32) (v9 v12 : Vec Ideal S128x128 .f32)
    (v18 : Vec Ideal S1x128 .f32) (x agg : S40000x128.Idx → EReal) (W : S128x256.Idx → EReal) (b : S128.Idx → EReal)
    (y : S5000x128.Idx) (p : Fin 5000) (q : Fin 128) (hy : y = ix2 p q)
    (i : S40000x128.Idx) (n : Fin 40000) (o : Fin 128) (hi : i = ix2 n o)
    (e0 : ∀ k : Fin 128, v0 (ix2 p k) = x (ix2 n k))
    (e1 : ∀ k : Fin 128, v2 (ix2 p k) * v4 (ix2 p (0 : Fin 1)) = agg (ix2 n k))
    (e3 : ∀ k : Fin 128, v9 (ix2 k q) = W (ix2 o (Cert.Sage.lo k)))
    (e4 : ∀ k : Fin 128, v12 (ix2 k q) = W (ix2 o (Cert.Sage.hi k)))
    (e5 : v18 (ix2 (0 : Fin 1) q) = b (ix1 o)) :
    k0_pay1 (F := Ideal) v0 v2 v4 v9 v12 v18 y = Cert.Sage.linear x agg W b i := by
  subst hy hi
  rw [pay_apply]
  show _ = ((∑ k : Fin 128, x (ix2 n k) * W (ix2 o (Cert.Sage.lo k))) + (∑ k : Fin 128, agg (ix2 n k) * W (ix2 o (Cert.Sage.hi k))))
    + b (ix1 o)
  simp only [e0, e1, e3, e4, e5]

end Cert.Sage.Kernel

end
-- ==== Proof.KernelValue.lean ====
/-
  The kernel's result array as one function of the arguments.

  Point `t` of the grid writes back rows `5000·t … 5000·t + 4999` of
      linear x (aggU ∘ inv2) W b
  (one element at a time: the body's arithmetic on the blocks the point is handed), and the 8 row blocks tile the
  40000 rows, so the result array ends holding that function.
-/
import proofs.«169618_j16492674417005_2_alg».proof.Proof.Gen.KernelIdeal.Value
import proofs.«169618_j16492674417005_2_alg».proof.Proof.Blocks
import Idealize.ShloMosaic.Lib.Pipeline.Value

noncomputable section

open scoped BigOperators

namespace Cert.Sage.Kernel

open Cert.KernelIdeal Cert.KernelIdeal.Gen Cert.KernelIdeal.Value Cert.Sage.Host Cert.Sage.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Point `t` writes its rows of `result`; the 8 row blocks tile the array -/

/-- What point `t` writes back is rows `5000·t … 5000·t + 4999` of `result`. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero hz]
  simp only [View.ld_unit_zero (S := S5000x128) hz, View.ld_unit_zero (S := S5000x1) hz, View.ld_unit_zero (S := S128x128) hz,
    View.ld_unit_zero (S := S1x128) hz]
  funext y
  show k0_pay1 (F := Ideal) (iblk m c 0 t) (iblk m c 1 t) (iblk m c 2 t) (iblk m c 3 t) (iblk m c 4 t) (iblk m c 5 t) y
    = result m c (((cfg0.win 6).blk t).view.emb y)
  obtain ⟨-, -, -, -, -, -, -, -, -, -, -, -, e6, e7⟩ := idx_facts t
  have hn : ((((cfg0.win 6).blk t).view.emb y) 0).val = win0_6.index t (0 : Fin 2) * 5000 + (y 0).val := by
    show win0_6.index t (0 : Fin 2) * 5000 + 1 * (y 0).val = _; omega
  have ho : ((((cfg0.win 6).blk t).view.emb y) 1).val = (y 1).val := by
    show win0_6.index t (1 : Fin 2) * 128 + 1 * (y 1).val = _; omega
  unfold result
  refine point_eq _ _ _ _ _ _ _ _ _ _ y (y 0) (y 1) (eq_ix2 y) _
    ((((cfg0.win 6).blk t).view.emb y) 0) ⟨(y 1).val, (y 1).isLt⟩ (by
      funext a
      apply Fin.ext
      match a with
      | ⟨0, _⟩ => rfl
      | ⟨1, _⟩ => exact ho) ?_ ?_ ?_ ?_ ?_
  · intro k
    exact iblk0_apply m c t _ _ hn rfl
  · intro k
    exact congrArg₂ (fun a b : EReal => a * b)
      (iblk1_apply m c t (ix2 (y 0) k : S5000x128.Idx) (ix2 ((((cfg0.win 6).blk t).view.emb y) 0) k) hn rfl)
      (iblk2_apply m c t (ix2 (y 0) (0 : Fin 1) : S5000x1.Idx) (ix2 ((((cfg0.win 6).blk t).view.emb y) 0) (0 : Fin 1)) hn rfl)
  · intro k
    exact (iblk3_apply m c t _).trans (wx_apply (a3 m c) k ⟨(y 1).val, (y 1).isLt⟩)
  · intro k
    exact (iblk4_apply m c t _).trans (wagg_apply (a3 m c) k ⟨(y 1).val, (y 1).isLt⟩)
  · exact (iblk5_apply m c t _).trans (b2_apply (a4 m c) ⟨(y 1).val, (y 1).isLt⟩)

/-- An index of the result array is in point `t`'s block iff each coordinate is in the block's range on its axis. -/
theorem mem_blk (t : Fin cfg0.N) (i : S40000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v29).slice (win0_6.rect t)).set ↔ _
  rw [View.set_slice_whole, Rect.mem_set_unit]
  exact Iff.rfl

/-- Node row `r` is in the block of point `r / 5000`. -/
theorem cover (i : S40000x128.Idx) : ∃ t : Fin cfg0.N, (cfg0.win 6).flush t = true ∧ i ∈ ((cfg0.win 6).blk t).view.set := by
  have hi0 : (i 0).val < 40000 := (i 0).isLt
  have hi1 : (i 1).val < 128 := (i 1).isLt
  have hN : cfg0.N = 8 := N_0
  have hlt : (i 0).val / 5000 < cfg0.N := by rw [hN]; omega
  obtain ⟨-, -, -, -, -, -, -, -, -, -, -, -, e6, e7⟩ := idx_facts ⟨(i 0).val / 5000, hlt⟩
  refine ⟨⟨(i 0).val / 5000, hlt⟩, flush0_6 _, ?_⟩
  rw [mem_blk]
  intro a
  match a with
  | ⟨0, _⟩ =>
    show win0_6.index ⟨(i 0).val / 5000, hlt⟩ (0 : Fin 2) * 5000 ≤ (i 0).val
      ∧ (i 0).val < win0_6.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_6.index ⟨(i 0).val / 5000, hlt⟩ (1 : Fin 2) * 128 ≤ (i 1).val
      ∧ (i 1).val < win0_6.index ⟨(i 0).val / 5000, hlt⟩ (1 : Fin 2) * 128 + 128
    rw [e7]
    omega

/-- So the result array ends holding `result`. -/
theorem final (c : Dev nD) : (dats m 0 c).arrAt 6 cfg0.N = result m c :=
  (dats m 0 c).arrAt_eq_of_cover 6 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v29) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Sage.Kernel

end
-- ==== Proof.RefLinear.lean ====
/-
  The reference program's final result is the specification's linear layer of its aggregated rows.

  The reference joins each node's own feature row and its aggregated neighbour row into one row of 256 entries,
  h = [x | agg], multiplies by the transposed weight matrix and adds the bias:
    ref[n, o] = Σ_{k < 256} h[n, k] · W[o, k] + b[o].
  Cutting the sum over k < 256 into the halves k < 128 and 128 ≤ k, and reading the joined row on each half
  (h[n, k] = x[n, k] and h[n, 128 + k] = agg[n, k] for k < 128), gives
    ref[n, o] = Σ_{k < 128} x[n, k] · W[o, k] + Σ_{k < 128} agg[n, k] · W[o, 128 + k] + b[o],
  the same sums in the same order as the specification: no rearrangement of terms is used.
-/
import proofs.«169618_j16492674417005_2_alg».proof.Proof.Gen.ReferenceIdeal.Read
import proofs.«169618_j16492674417005_2_alg».proof.Proof.Spec
import Idealize.ShloMosaic.Lib.Pipeline.Value
import Idealize.ShloMosaic.Lib.ValueIdx
import Idealize.ShloMosaic.PureOps.Ideal.Laws

noncomputable section

open scoped BigOperators

namespace Cert.Sage.Ref

open Cert.ReferenceIdeal Cert.ReferenceIdeal.Read Idealize.ShloMosaic Idealize.ShloMosaic.ValueIdx

/-- A sum over 256 columns is the sum over the left half plus the sum over the right half, each in its own order:
    `Σ_{k < 256} f k = Σ_{k < 128} f k + Σ_{k < 128} f (128 + k)`. -/
theorem sum_halves (f : Fin 256 → EReal) :
    ∑ k : Fin 256, f k = (∑ k : Fin 128, f (lo k)) + ∑ k : Fin 128, f (hi k) :=
  Fin.sum_univ_add (a := 128) (b := 128) f

/-- The joined row on its left half is the node's own feature row: `[x | agg][n, k] = x[n, k]` for `k < 128`. -/
theorem joined_lo (x0 : (⟨S40000x128, .f32⟩ : BufTy).Contents (Elt Ideal)) (x1 : (⟨S2x640000, .i32⟩ : BufTy).Contents (Elt Ideal))
    (x2 : (⟨S640000, .f32⟩ : BufTy).Contents (Elt Ideal)) (n : Fin 40000) (k : Fin 128) :
    val_main_v29 (F := Ideal) x0 x1 x2 (ix2 n (lo k)) = x0 (ix2 n k) := by
  unfold val_main_v29
  generalize val_main_v28 (F := Ideal) x0 x1 x2 = agg
  exact concatenate_pair_apply_left 1 x0 agg _ (ix2 n (lo k)) rfl (ix2 n k) (fun b => match b with
    | ⟨0, _⟩ => rfl
    | ⟨1, _⟩ => rfl)

/-- The joined row on its right half is the aggregated neighbour row: `[x | agg][n, 128 + k] = agg[n, k]` for `k < 128`. -/
theorem joined_hi (x0 : (⟨S40000x128, .f32⟩ : BufTy).Contents (Elt Ideal)) (x1 : (⟨S2x640000, .i32⟩ : BufTy).Contents (Elt Ideal))
    (x2 : (⟨S640000, .f32⟩ : BufTy).Contents (Elt Ideal)) (n : Fin 40000) (k : Fin 128) :
    val_main_v29 (F := Ideal) x0 x1 x2 (ix2 n (hi k)) = val_main_v28 (F := Ideal) x0 x1 x2 (ix2 n k) := by
  unfold val_main_v29
  generalize val_main_v28 (F := Ideal) x0 x1 x2 = agg
  exact concatenate_pair_apply_right 1 x0 agg _ (ix2 n (hi k)) rfl rfl (ix2 n k) (fun b => match b with
    | ⟨0, _⟩ => fun _ => rfl
    | ⟨1, _⟩ => fun h => absurd rfl h) (Nat.add_comm k.val 128)

/-- The left operand of the product at output `(n, o)` and column `k` is the joined row at `(n, k)`. -/
theorem lidx_eq (i : S40000x128.Idx) (k : Fin 256) : lidx_main_v31 i k = ix2 (i 0) k :=
  funext fun a => match a with
    | ⟨0, _⟩ => rfl
    | ⟨1, _⟩ => rfl

/-- The transposed weight matrix at `(k, o)` is the weight matrix at `(o, k)`. -/
theorem widx_eq (i : S40000x128.Idx) (k : Fin 256) : idx_main_v30 (ridx_main_v31 i k) = ix2 (i 1) k :=
  funext fun a => match a with
    | ⟨0, _⟩ => rfl
    | ⟨1, _⟩ => rfl

/-- The bias, broadcast to every row, at `(n, o)` is the bias at `o`. -/
theorem bidx_eq (i : S40000x128.Idx) : idx_main_v32 (idx_main_v33 i) = ix1 (i 1) :=
  funext fun a => match a with
    | ⟨0, _⟩ => rfl

/-- The reference's result is the linear layer of its aggregated rows:
    `ref[n, o] = Σ_{k < 128} x[n, k] · W[o, k] + Σ_{k < 128} agg[n, k] · W[o, 128 + k] + b[o]`. -/
theorem result_eq_linear (x0 : (⟨S40000x128, .f32⟩ : BufTy).Contents (Elt Ideal)) (x1 : (⟨S2x640000, .i32⟩ : BufTy).Contents (Elt Ideal)) (x2 : (⟨S640000, .f32⟩ : BufTy).Contents (Elt Ideal)) (x3 : (⟨S128x256, .f32⟩ : BufTy).Contents (Elt Ideal)) (x4 : (⟨S128, .f32⟩ : BufTy).Contents (Elt Ideal)) :
    val_main_v34 (F := Ideal) x0 x1 x2 x3 x4 = Cert.Sage.linear x0 (val_main_v28 (F := Ideal) x0 x1 x2) x3 x4 := by
  funext i
  rw [val_main_v34_apply, val_main_v31_apply, val_main_v33_apply, val_main_v32_apply, bidx_eq, sum_halves]
  simp only [val_main_v30_apply, widx_eq, lidx_eq, Ideal.addf_def]
  unfold Cert.Sage.linear
  refine congrArg (fun t => t + x4 (ix1 (i 1)))
    (congrArg₂ (fun s t => s + t) (Finset.sum_congr rfl fun k _ => ?_) (Finset.sum_congr rfl fun k _ => ?_))
  · exact congrArg (fun t => t * x3 (ix2 (i 1) (lo k))) (joined_lo x0 x1 x2 (i 0) k)
  · exact congrArg (fun t => t * x3 (ix2 (i 1) (hi k))) (joined_hi x0 x1 x2 (i 0) k)

end Cert.Sage.Ref

end
-- ==== Proof.EdgeIndex.lean ====
/-
  Two facts about `stablehlo.gather` / `stablehlo.scatter` dimension numbers at literal shapes: a flat per-node
  array (40000 nodes) gathered at a column of 640000 start indices, and per-edge rows (640000 × 128) scattered into
  per-node rows (40000 × 128) by the same column. An update that lands on node row `n` has start index `n`, so the
  per-node value gathered for that edge is the value at `n`.
-/
import Idealize.ShloMosaic.PureOps.Ideal
import Idealize.ShloMosaic.Lib.ValueIdx

noncomputable section

namespace Cert.Sage

open Idealize.ShloMosaic Idealize.ShloMosaic.ValueIdx

/-! ## The gather of a flat per-node array at a column of start indices -/

/-- The dimension numbers of the gather of single elements for a flat operand `[40000]`, start indices `[640000, 1]` (the index vector
    on axis 1, of length one) and result `[640000]`: no offset axis, the operand's one axis collapsed and named by
    the start index map, slices of one element. -/
abbrev nodeTake (wf : GatherDims.WF ⟨1, ![40000]⟩ ⟨2, ![640000, 1]⟩ ⟨1, ![640000]⟩ [] [0] [] [0] [] 1 ![1]) :
    GatherDims ⟨1, ![40000]⟩ ⟨2, ![640000, 1]⟩ ⟨1, ![640000]⟩ where
  offsetDims := []
  collapsedSliceDims := [0]
  operandBatchingDims := []
  startIndicesBatchingDims := []
  startIndexMap := [0]
  indexVectorDim := 1
  sliceSizes := ![1]
  wf := wf

/-- The gather read at `e`: the operand at the start index `idx[e, 0]`, read as a signed integer and clamped into
    `[0, 39999]`. -/
theorem nodeTake_apply {α : Type} {w : Nat}
    (wf : GatherDims.WF ⟨1, ![40000]⟩ ⟨2, ![640000, 1]⟩ ⟨1, ![640000]⟩ [] [0] [] [0] [] 1 ![1])
    (x : (⟨1, ![40000]⟩ : Shape).Idx → α) (idx : IVec ⟨2, ![640000, 1]⟩ w) (e : Fin 640000) :
    Host.gather (nodeTake wf) x idx (ix1 e)
      = x (ix1 ⟨min (idx (ix2 e (0 : Fin 1))).toInt.toNat 39999, by omega⟩) := by
  unfold Host.gather
  congr 1
  funext a
  obtain rfl : a = 0 := Subsingleton.elim _ _
  refine Fin.ext ?_
  show (nodeTake wf).start (ix1 e) idx 0 + (nodeTake wf).batchCoord (ix1 e) 0 + (nodeTake wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (nodeTake wf).startIndexMap from List.mem_singleton.mpr rfl)]
  have hsi : (nodeTake wf).siIdx (ix1 e) ⟨List.idxOf (0 : Fin 1) (nodeTake wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The scatter of per-edge rows into per-node rows by the same column -/

/-- The dimension numbers of the scatter of rows for an operand `[40000, 128]`, scatter indices `[640000, 1]`
    (the index vector on axis 1, of length one) and updates `[640000, 128]`: the updates' axis 1 is the window axis,
    the operand's axis 0 is inserted and is the one the scatter index names. -/
abbrev rowScatter (wf : ScatterDims.WF ⟨2, ![40000, 128]⟩ ⟨2, ![640000, 1]⟩ ⟨2, ![640000, 128]⟩ [1] [0] [0] 1) :
    ScatterDims ⟨2, ![40000, 128]⟩ ⟨2, ![640000, 1]⟩ ⟨2, ![640000, 128]⟩ where
  updateWindowDims := [1]
  insertedWindowDims := [0]
  scatterDimsToOperandDims := [0]
  indexVectorDim := 1
  wf := wf

/-- An update element `(e, k)` that lands inside the operand, at `i`, lands at row `idx[e, 0]` read as a signed
    integer (which is therefore in `[0, 40000)`) and at column `k`. -/
theorem rowScatter_lands {w : Nat}
    (wf : ScatterDims.WF ⟨2, ![40000, 128]⟩ ⟨2, ![640000, 1]⟩ ⟨2, ![640000, 128]⟩ [1] [0] [0] 1)
    (idx : IVec ⟨2, ![640000, 1]⟩ w) (e : Fin 640000) (k : Fin 128) (i : (⟨2, ![40000, 128]⟩ : Shape).Idx)
    (h : (rowScatter wf).resultIdx? (ix2 e k) idx = some i) :
    (idx (ix2 e (0 : Fin 1))).toInt = ((i 0).val : Int) ∧ (i 1).val = k.val := by
  -- on axis 0 the start is the scatter index and the window coordinate is 0
  have hstart0 : (rowScatter wf).start (ix2 e k) idx 0 = (idx (ix2 e (0 : Fin 1))).toInt := by
    unfold ScatterDims.start
    rw [dif_pos (show (0 : Fin 2) ∈ (rowScatter wf).scatterDimsToOperandDims from List.mem_singleton.mpr rfl)]
    have hsi : (rowScatter wf).siIdx (ix2 e k) ⟨List.idxOf (0 : Fin 2) (rowScatter wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hwin0 : (rowScatter wf).window (ix2 e k) 0 = 0 := by
    unfold ScatterDims.window
    rw [dif_neg (show (0 : Fin 2) ∉ (⟨2, ![40000, 128]⟩ : Shape).kept [0] from by decide)]
  -- on axis 1 the start is 0 and the window coordinate is the update's column
  have hstart1 : (rowScatter wf).start (ix2 e k) idx 1 = 0 := by
    unfold ScatterDims.start
    rw [dif_neg (show (1 : Fin 2) ∉ ([0] : List (Fin 2)) from by decide)]
  have hwin1 : (rowScatter wf).window (ix2 e k) 1 = k.val := by
    unfold ScatterDims.window
    rw [dif_pos (show (1 : Fin 2) ∈ (⟨2, ![40000, 128]⟩ : Shape).kept [0] from by decide)]
    rfl
  unfold ScatterDims.resultIdx? at h
  split at h
  · rename_i hin
    obtain rfl := Option.some.inj h
    have h0 := hin 0
    rw [hstart0, hwin0] at h0
    refine ⟨?_, ?_⟩
    · show _ = (((rowScatter wf).start (ix2 e k) idx 0 + (rowScatter wf).window (ix2 e k) 0).toNat : Int)
      rw [hstart0, hwin0]; omega
    · show ((rowScatter wf).start (ix2 e k) idx 1 + (rowScatter wf).window (ix2 e k) 1).toNat = k.val
      rw [hstart1, hwin1]; omega
  · cases h

/-! ## The value gathered for an edge is the value at the node its update lands on -/

/-- Let `idx'` be the destinations `idx` with a negative entry moved up by 40000 (the sign normalisation of an
    index into 40000 rows). If the update element `(e, k)` of the scatter by `idx` lands at `i`, then the flat
    per-node array gathered at `idx'` reads, at edge `e`, the array's value at node `i 0`: the landing row is
    the start index itself, which is nonnegative and below 40000, so it is neither normalised nor clamped. -/
theorem nodeTake_of_lands {α : Type}
    (wf₁ : GatherDims.WF ⟨1, ![40000]⟩ ⟨2, ![640000, 1]⟩ ⟨1, ![640000]⟩ [] [0] [] [0] [] 1 ![1])
    (wf₂ : ScatterDims.WF ⟨2, ![40000, 128]⟩ ⟨2, ![640000, 1]⟩ ⟨2, ![640000, 128]⟩ [1] [0] [0] 1)
    (x : (⟨1, ![40000]⟩ : Shape).Idx → α) (idx idx' : IVec ⟨2, ![640000, 1]⟩ 32)
    (h' : ∀ e : Fin 640000, idx' (ix2 e (0 : Fin 1))
      = if (idx (ix2 e (0 : Fin 1))).toInt < 0 then idx (ix2 e (0 : Fin 1)) + 40000#32 else idx (ix2 e (0 : Fin 1)))
    (e : Fin 640000) (k : Fin 128) (i : (⟨2, ![40000, 128]⟩ : Shape).Idx)
    (h : (rowScatter wf₂).resultIdx? (ix2 e k) idx = some i) :
    Host.gather (nodeTake wf₁) x idx' (ix1 e) = x (ix1 ⟨(i 0).val, idx2_lt0 i⟩) := by
  obtain ⟨h0, -⟩ := rowScatter_lands wf₂ idx e k i h
  have hi : (i 0).val < 40000 := idx2_lt0 i
  have hpos : ¬ (idx (ix2 e (0 : Fin 1))).toInt < 0 := by rw [h0]; omega
  have hidx : idx' (ix2 e (0 : Fin 1)) = idx (ix2 e (0 : Fin 1)) := by rw [h' e, if_neg hpos]
  rw [nodeTake_apply]
  refine congrArg x ?_
  funext a
  obtain rfl : a = 0 := Subsingleton.elim _ _
  refine Fin.ext ?_
  show min (idx' (ix2 e (0 : Fin 1))).toInt.toNat 39999 = (i 0).val
  rw [hidx, h0]; omega

end Cert.Sage

end
-- ==== Proof.Rescale.lean ====
/-
  Normalising per edge or once per node: the one algebraic law that joins the two programs.

  For a node with total incoming weight `s`, let `c = max(ε, s)` with `ε > 0`. Over the extended reals `c ≥ ε > 0`, so
  a quotient by `c` is the product with `c⁻¹`, and `c⁻¹` is a finite non-negative number (it is `0` when `c = +∞`).
  Multiplication by a finite non-negative extended real distributes over every sum of extended reals, infinite terms
  included, so
      (Σ_j w_j · x_j) · (1 / c)  =  Σ_j (w_j / c) · x_j
  with no finiteness assumption on the weights or the features.
-/
import Mathlib.Data.EReal.Inv
import Idealize.ShloMosaic.PureOps.Ideal

noncomputable section

open scoped BigOperators

namespace Cert.Sage

open Idealize.ShloMosaic

/-- The pattern of `1.0` denotes `1`. -/
theorem ofBits_one : Ideal.ofBits .f32 0x3F800000#32 = 1 := by
  simp [Ideal.ofBits, Ideal.ieee, -EReal.coe_mul]; norm_num

/-- The floor of the normaliser (the float nearest `1e-8`) is positive. -/
theorem floor_pos : (0 : EReal) < Ideal.ofBits .f32 0x322BCC77#32 := by
  simp [Ideal.ofBits, Ideal.ieee, -EReal.coe_mul]

/-- A sum times a finite non-negative factor is the sum of the products. -/
theorem sum_mul_of_nonneg_of_ne_top {ι : Type*} (s : Finset ι) (f : ι → EReal) {r : EReal} (h0 : 0 ≤ r) (ht : r ≠ ⊤) :
    (∑ j ∈ s, f j) * r = ∑ j ∈ s, f j * r := by
  classical
  induction s using Finset.induction_on with
  | empty => simp
  | insert a s ha ih =>
    rw [Finset.sum_insert ha, Finset.sum_insert ha, EReal.right_distrib_of_nonneg_of_ne_top h0 ht, ih]

/-- A quotient by a normaliser floored at a positive value is the product with its inverse. -/
theorem div_floor (a c : EReal) {ε : EReal} (hε : 0 < ε) : Ideal.div a (max ε c) = a * (max ε c)⁻¹ := by
  unfold Ideal.div
  rw [if_neg (ne_of_gt (lt_of_lt_of_le hε (le_max_left ε c)))]

/-- The inverse of a floored normaliser is non-negative and finite. -/
theorem inv_floor_nonneg (c : EReal) {ε : EReal} (hε : 0 < ε) : 0 ≤ (max ε c)⁻¹ :=
  EReal.inv_nonneg_of_nonneg (le_of_lt (lt_of_lt_of_le hε (le_max_left ε c)))
theorem inv_floor_ne_top (c : EReal) {ε : EReal} (hε : 0 < ε) : (max ε c)⁻¹ ≠ ⊤ :=
  (EReal.inv_lt_top _).ne

/-- NORMALISE ONCE PER NODE = NORMALISE EVERY EDGE: the unnormalised weighted sum of a node's incoming rows, times one
    over the node's floored total weight, is the sum of the rows weighted by the normalised edge weights — each edge's
    normaliser `cj j` being its destination node's (`hc`). -/
theorem rescale_sum {ι : Type*} (s : Finset ι) (w x cj : ι → EReal) (c ε : EReal) (hε : 0 < ε) (hc : ∀ j ∈ s, cj j = c) :
    (0 + ∑ j ∈ s, w j * x j) * Ideal.div 1 (max ε c) = 0 + ∑ j ∈ s, Ideal.div (w j) (max ε (cj j)) * x j := by
  rw [zero_add, zero_add, div_floor 1 c hε, one_mul,
    sum_mul_of_nonneg_of_ne_top s _ (inv_floor_nonneg c hε) (inv_floor_ne_top c hε)]
  refine Finset.sum_congr rfl fun j hj => ?_
  rw [hc j hj, div_floor (w j) c hε, mul_right_comm]

end Cert.Sage

end
-- ==== Proof.Normalise.lean ====
/-
  The kernel's aggregate, normalised once per node, is the reference's aggregate, normalised edge by edge.

  Both programs sum per-edge rows into the row of the edge's destination node, over the SAME set of landing update
  elements (the same destination column). The kernel sums `w_e · x[src_e]` and multiplies node `n`'s sum by
  `1 / max(ε, wsum[n])`; the reference sums `(w_e / max(ε, wsum[dst'_e])) · x[src_e]`, where `dst'` is the destination
  column with a negative entry moved up by 40000, and the per-node total is gathered at `dst'` with clamping. An update
  that lands on node `n` has destination exactly `n ∈ [0, 40000)`, so it is neither moved nor clamped and its
  normaliser is node `n`'s; the rest is the distribution of a finite non-negative factor over a sum.
-/
import proofs.«169618_j16492674417005_2_alg».proof.Proof.Gen.ReferenceIdeal.Read
import proofs.«169618_j16492674417005_2_alg».proof.Proof.HostStages
import proofs.«169618_j16492674417005_2_alg».proof.Proof.EdgeIndex
import proofs.«169618_j16492674417005_2_alg».proof.Proof.Rescale
import Idealize.ShloMosaic.Lib.Pipeline.Value
import Idealize.ShloMosaic.Lib.ValueIdx

noncomputable section

open scoped BigOperators

namespace Cert.Sage.Bridge

open Cert.ReferenceIdeal Cert.ReferenceIdeal.Read Idealize.ShloMosaic Idealize.ShloMosaic.ValueIdx

/-- The smallest admitted normaliser. -/
abbrev ε : EReal := Ideal.ofBits .f32 0x322BCC77#32

/-! ## The stages the two programs share are the same functions -/

theorem dstCol_eq (x1 : IVec S2x640000 32) : Cert.Sage.Host.dstCol x1 = val_main_v27 (F := Ideal) x1 := rfl
theorem msgs_eq (x0 : FVec Ideal S40000x128 .f32) (x1 : IVec S2x640000 32) :
    Cert.Sage.Host.msgs x0 x1 = val_main_v10 (F := Ideal) x0 x1 := rfl
theorem wsum_eq (x1 : IVec S2x640000 32) (x2 : FVec Ideal S640000 .f32) :
    Cert.Sage.Host.wsum x1 x2 = val_main_v13 (F := Ideal) x1 x2 := rfl

/-! ## A scatter-add into zeros, and a column broadcast along rows, read at an index -/

/-- A float scatter-add into an array of zeros holds, at `i`, the sum of the update elements that land on `i`. -/
theorem scatterAdd_zero_apply {s si su : Shape} {w : Nat} (d : ScatterDims s si su)
    (hb : (⟨0, ![]⟩ : Shape).BroadcastsInDim s (![] : Fin 0 → Fin s.rank)) (idx : IVec si w) (upd : FVec Ideal su .f32) (i : s.Idx) :
    Host.scatterAdd (F := Ideal) d (broadcastInDim s ![] hb (constant (F := Ideal) ⟨0, ![]⟩ .f32 0x00000000#32)) idx upd i
      = 0 + ∑ j ∈ Finset.univ.filter (fun j => d.resultIdx? j idx = some i), upd j := by
  show Ideal.ofBits .f32 0x00000000#32 + _ = _
  rw [Ideal.ofBits_zero_f32]

/-- The edge of an update element. -/
abbrev edge (j : S640000x128.Idx) : Fin 640000 := ⟨(j 0).val, idx2_lt0 j⟩

/-- A per-edge scalar laid out as a column and broadcast along the 128 lanes reads, at `(e, k)`, the scalar of edge `e`. -/
theorem lanes_apply {α : Type} (h2 : S640000x1.BroadcastsInDim S640000x128 (![0, 1] : Fin 2 → Fin S640000x128.rank))
    (h1 : S640000.BroadcastsInDim S640000x1 (![0] : Fin 1 → Fin S640000x1.rank)) (v : S640000.Idx → α) (j : S640000x128.Idx) :
    broadcastInDim S640000x128 ![0, 1] h2 (broadcastInDim S640000x1 ![0] h1 v) j = v (ix1 (edge j)) := by
  refine (broadcastInDim_apply _ h2 _ j (ix2 (edge j) (0 : Fin 1)) (fun a => match a with
    | ⟨0, _⟩ => by show (j 0).val = if (640000 : Nat) = 1 then 0 else (j 0).val; rw [if_neg (by decide)]
    | ⟨1, _⟩ => by show 0 = if (1 : Nat) = 1 then 0 else (j 1).val; rw [if_pos rfl])).trans ?_
  exact broadcastInDim_apply _ h1 v (ix2 (edge j) (0 : Fin 1)) (ix1 (edge j)) (fun a => match a with
    | ⟨0, _⟩ => by show (j 0).val = if (640000 : Nat) = 1 then 0 else (j 0).val; rw [if_neg (by decide)])

/-- The update elements that land on `i`. -/
abbrev landing (x1 : IVec S2x640000 32) (i : S40000x128.Idx) : Finset S640000x128.Idx :=
  Finset.univ.filter (fun j => scatter_S40000x128_S640000x1_S640000x128_1_0_0_1.resultIdx? j (val_main_v27 (F := Ideal) x1) = some i)

/-! ## The kernel's two stages at an index -/

/-- The kernel's unnormalised aggregate at `i`: the sum, over the landing update elements, of weight times source entry. -/
theorem aggU_apply (x0 : FVec Ideal S40000x128 .f32) (x1 : IVec S2x640000 32) (x2 : FVec Ideal S640000 .f32) (i : S40000x128.Idx) :
    Cert.Sage.Host.aggU x0 x1 x2 i
      = 0 + ∑ j ∈ landing x1 i, x2 (ix1 (edge j)) * val_main_v10 (F := Ideal) x0 x1 j := by
  unfold Cert.Sage.Host.aggU
  refine (scatterAdd_zero_apply _ _ _ _ i).trans ?_
  refine congrArg (fun s => (0 : EReal) + s) (Finset.sum_congr rfl fun j _ => ?_)
  unfold Cert.Sage.Host.weighted
  exact congrArg (fun s => s * val_main_v10 (F := Ideal) x0 x1 j) (lanes_apply _ _ x2 j)

/-- A flat array laid out as a column reads, at `(i, 0)`, the array at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A scalar constant broadcast to an array reads, at every index, the value of its pattern. -/
theorem splat_apply {s : Shape} (h : (⟨0, ![]⟩ : Shape).BroadcastsInDim s (![] : Fin 0 → Fin s.rank)) (b : BitVec 32) (i : s.Idx) :
    broadcastInDim s ![] h (constant (F := Ideal) ⟨0, ![]⟩ .f32 b) i = Ideal.ofBits .f32 b :=
  broadcastInDim_apply _ h _ i ix0 (fun a => a.elim0)

/-- Node `n`'s normaliser: its total incoming weight floored at `ε`. -/
theorem floorW_apply (x1 : IVec S2x640000 32) (x2 : FVec Ideal S640000 .f32) (n : Fin 40000) :
    Cert.Sage.Host.floorW x1 x2 (ix1 n) = max ε (val_main_v13 (F := Ideal) x1 x2 (ix1 n)) := by
  unfold Cert.Sage.Host.floorW
  exact congrArg₂ max (splat_apply _ 0x322BCC77#32 (ix1 n)) (congrFun (wsum_eq x1 x2) (ix1 n))

/-- Node `n`'s entry of the reciprocal-normaliser column: one over its floored total weight. -/
theorem inv2_apply (x1 : IVec S2x640000 32) (x2 : FVec Ideal S640000 .f32) (n : Fin 40000) :
    Cert.Sage.Host.inv2 x1 x2 (ix2 n (0 : Fin 1)) = Ideal.div 1 (max ε (val_main_v13 (F := Ideal) x1 x2 (ix1 n))) := by
  unfold Cert.Sage.Host.inv2
  refine (shapeCast_a_a1_apply _ _ n (0 : Fin 1)).trans ?_
  unfold Host.divf
  beta_reduce
  rw [Ideal.hostDivf_def, splat_apply, floorW_apply, Cert.Sage.ofBits_one]

/-! ## The reference's stages at an index -/

/-- The reference's per-edge normalised weight, as the lanes of an update element read it. -/
theorem wnorm_apply (x1 : IVec S2x640000 32) (x2 : FVec Ideal S640000 .f32) (j : S640000x128.Idx) :
    val_main_v24 (F := Ideal) x1 x2 j
      = Ideal.div (x2 (ix1 (edge j))) (max ε (val_main_v20 (F := Ideal) x1 x2 (ix1 (edge j)))) := by
  have hi : idx_main_v23 (idx_main_v24 j) = ix1 (edge j) := funext fun a => match a with | ⟨0, _⟩ => rfl
  rw [val_main_v24_apply, val_main_v23_apply, hi, val_main_v22_apply, val_main_v21_apply, val_main_call0_v1_apply]
  rfl

/-- The reference's aggregate at `i`: the sum, over the landing update elements, of normalised weight times source entry. -/
theorem agg_apply (x0 : FVec Ideal S40000x128 .f32) (x1 : IVec S2x640000 32) (x2 : FVec Ideal S640000 .f32) (i : S40000x128.Idx) :
    val_main_v28 (F := Ideal) x0 x1 x2 i
      = 0 + ∑ j ∈ landing x1 i,
          Ideal.div (x2 (ix1 (edge j))) (max ε (val_main_v20 (F := Ideal) x1 x2 (ix1 (edge j)))) * val_main_v10 (F := Ideal) x0 x1 j := by
  unfold val_main_v28
  refine (scatterAdd_zero_apply _ _ _ _ i).trans ?_
  refine congrArg (fun s => (0 : EReal) + s) (Finset.sum_congr rfl fun j _ => ?_)
  rw [val_main_v25_apply, wnorm_apply]
  rfl

/-! ## The destination column, sign-normalised -/

/-- A signed index below zero is moved up by 40000, any other kept: the host's select on a signed comparison with zero. -/
theorem move_up (d : BitVec 32) :
    Scalar.select (IntOp.cmpi .slt d 0#32) (IntOp.addi d 40000#32) d = if d.toInt < 0 then d + 40000#32 else d := by
  unfold Scalar.select IntOp.cmpi IntOp.addi
  by_cases h : d.toInt < 0
  · have hs : d.slt 0#32 = true := by simp [BitVec.slt, h]
    simp [hs, h]
  · have hs : d.slt 0#32 = false := by simp [BitVec.slt, h]
    simp [hs, h]

/-- The gather's start indices are the scatter's, a negative one moved up by 40000. -/
theorem dst_moved (x1 : IVec S2x640000 32) (e : Fin 640000) :
    val_main_v19 (F := Ideal) x1 (ix2 e (0 : Fin 1))
      = if (val_main_v27 (F := Ideal) x1 (ix2 e (0 : Fin 1))).toInt < 0 then val_main_v27 (F := Ideal) x1 (ix2 e (0 : Fin 1)) + 40000#32
        else val_main_v27 (F := Ideal) x1 (ix2 e (0 : Fin 1)) := by
  have h1 : idx_main_v19 (ix2 e (0 : Fin 1)) = ix1 e := funext fun a => match a with | ⟨0, _⟩ => rfl
  have h2 : idx_main_v27 (ix2 e (0 : Fin 1)) = ix1 e := funext fun a => match a with | ⟨0, _⟩ => rfl
  rw [val_main_v19_apply, val_main_v27_apply, h1, h2, val_main_v18_apply, val_main_v15_apply, val_main_v17_apply,
    val_main_v14_apply, val_main_v16_apply, val_main_c_1_apply, val_main_c_2_apply]
  exact move_up _

/-- The per-node total gathered for a landing update element is its landing node's. -/
theorem total_of_landing (x1 : IVec S2x640000 32) (x2 : FVec Ideal S640000 .f32) (n : Fin 40000) (k : Fin 128)
    (j : S640000x128.Idx) (hj : j ∈ landing x1 (ix2 n k)) :
    val_main_v20 (F := Ideal) x1 x2 (ix1 (edge j)) = val_main_v13 (F := Ideal) x1 x2 (ix1 n) := by
  have hl := (Finset.mem_filter.mp hj).2
  obtain ⟨e, k', rfl⟩ : ∃ (e : Fin 640000) (k' : Fin 128), j = ix2 e k' := ⟨j 0, j 1, eq_ix2 j⟩
  unfold val_main_v20
  exact Cert.Sage.nodeTake_of_lands gather_S40000_S640000x1_S640000_n_0_n_n_0_1_1.wf
    scatter_S40000x128_S640000x1_S640000x128_1_0_0_1.wf (val_main_v13 (F := Ideal) x1 x2) (val_main_v27 (F := Ideal) x1)
    (val_main_v19 (F := Ideal) x1) (dst_moved x1) e k' (ix2 n k) hl

/-! ## The two aggregates agree -/

/-- NORMALISED ONCE PER NODE = NORMALISED EDGE BY EDGE. -/
theorem normalised_eq (x0 : FVec Ideal S40000x128 .f32) (x1 : IVec S2x640000 32) (x2 : FVec Ideal S640000 .f32)
    (n : Fin 40000) (k : Fin 128) :
    Cert.Sage.Host.aggU x0 x1 x2 (ix2 n k) * Cert.Sage.Host.inv2 x1 x2 (ix2 n (0 : Fin 1))
      = val_main_v28 (F := Ideal) x0 x1 x2 (ix2 n k) := by
  rw [aggU_apply, inv2_apply, agg_apply]
  exact Cert.Sage.rescale_sum (landing x1 (ix2 n k)) (fun j => x2 (ix1 (edge j))) (fun j => val_main_v10 (F := Ideal) x0 x1 j)
    (fun j => val_main_v20 (F := Ideal) x1 x2 (ix1 (edge j))) (val_main_v13 (F := Ideal) x1 x2 (ix1 n)) ε Cert.Sage.floor_pos
    (fun j hj => total_of_landing x1 x2 n k j hj)

end Cert.Sage.Bridge

end
-- ==== Proof.lean ====
/-
  A graph convolution with weighted-mean aggregation, tiled over node rows, against its plain reference:
  the two idealized programs end with equal results over the extended reals.

  Both programs gather each edge's source feature row and sum the edge weights per destination node. The reference
  divides each edge weight by its destination's total weight (floored at a tiny positive value), sums the weighted
  source rows per destination, joins each node's own row with its aggregated row and applies one 256-wide linear layer.
  The kernel sums the UNNORMALISED weighted rows per destination, and its tiled body multiplies each node's sum by one
  over the node's floored total before applying the same linear layer as two 128-wide matrix products.

  * The kernel's result array is `linear x (aggU ∘ inv2) W b` (the body's arithmetic at one element of one row block, the
    row blocks tiling the array): Proof/Payload.lean, Proof/HostStages.lean, Proof/Blocks.lean, Proof/KernelValue.lean.
  * The reference's result is `linear x agg W b`: Proof/RefLinear.lean.
  * `aggU ∘ inv2 = agg`: an update lands on node `n` only if its destination is `n` itself (Proof/EdgeIndex.lean), and a
    finite non-negative factor distributes over any sum of extended reals (Proof/Rescale.lean); together Proof/Normalise.lean.
  No finiteness of the inputs is needed: the floored normaliser's inverse is finite and non-negative whatever they are.
  The frames are the generated ones; the ideal pass rewrote nothing, so there is nothing to preserve.
-/
import proofs.«169618_j16492674417005_2_alg».proof.Defs
import proofs.«169618_j16492674417005_2_alg».proof.Proof.Gen.Kernel
import proofs.«169618_j16492674417005_2_alg».proof.Proof.Gen.Kernel.Skeleton
import proofs.«169618_j16492674417005_2_alg».proof.Proof.Gen.Kernel.Launch
import proofs.«169618_j16492674417005_2_alg».proof.Proof.Gen.Kernel.Points
import proofs.«169618_j16492674417005_2_alg».proof.Proof.Gen.Kernel.Frame
import proofs.«169618_j16492674417005_2_alg».proof.Proof.Gen.KernelIdeal
import proofs.«169618_j16492674417005_2_alg».proof.Proof.Gen.KernelIdeal.Skeleton
import proofs.«169618_j16492674417005_2_alg».proof.Proof.Gen.KernelIdeal.Launch
import proofs.«169618_j16492674417005_2_alg».proof.Proof.Gen.KernelIdeal.Points
import proofs.«169618_j16492674417005_2_alg».proof.Proof.Gen.KernelIdeal.Frame
import proofs.«169618_j16492674417005_2_alg».proof.Proof.Gen.ReferenceIdeal
import proofs.«169618_j16492674417005_2_alg».proof.Proof.Gen.Pre_finite_inputs
import proofs.«169618_j16492674417005_2_alg».proof.Proof.Gen.KernelIdeal.Value
import proofs.«169618_j16492674417005_2_alg».proof.Proof.Gen.ReferenceIdeal.Run
import proofs.«169618_j16492674417005_2_alg».proof.Proof.Gen.ReferenceIdeal.Read
import proofs.«169618_j16492674417005_2_alg».proof.Proof.KernelValue
import proofs.«169618_j16492674417005_2_alg».proof.Proof.RefLinear
import proofs.«169618_j16492674417005_2_alg».proof.Proof.Normalise
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The kernel's normalised aggregate at `(n, k)`: the unnormalised sum times node `n`'s reciprocal normaliser. -/
theorem aggN_apply (x0 : FVec Ideal Cert.ReferenceIdeal.S40000x128 .f32) (x1 : IVec Cert.ReferenceIdeal.S2x640000 32)
    (x2 : FVec Ideal Cert.ReferenceIdeal.S640000 .f32) (n : Fin 40000) (k : Fin 128) :
    Cert.Sage.Kernel.aggN x0 x1 x2 (ValueIdx.ix2 n k)
      = Cert.Sage.Host.aggU x0 x1 x2 (ValueIdx.ix2 n k) * Cert.Sage.Host.inv2 x1 x2 (ValueIdx.ix2 n (0 : Fin 1)) := by
  unfold Cert.Sage.Kernel.aggN
  rfl

/-- The kernel's aggregate, normalised per node, is the reference's, entry by entry; so the two linear layers agree. -/
theorem results_agree (x0 : FVec Ideal Cert.ReferenceIdeal.S40000x128 .f32) (x1 : IVec Cert.ReferenceIdeal.S2x640000 32)
    (x2 : FVec Ideal Cert.ReferenceIdeal.S640000 .f32) (x3 : FVec Ideal Cert.ReferenceIdeal.S128x256 .f32)
    (x4 : FVec Ideal Cert.ReferenceIdeal.S128 .f32) :
    Cert.ReferenceIdeal.Read.val_main_v34 (F := Ideal) x0 x1 x2 x3 x4
      = Cert.Sage.linear x0 (Cert.Sage.Kernel.aggN x0 x1 x2) x3 x4 := by
  rw [Cert.Sage.Ref.result_eq_linear]
  exact Cert.Sage.linear_congr (x := x0) (agg := Cert.ReferenceIdeal.Read.val_main_v28 (F := Ideal) x0 x1 x2)
    (agg' := Cert.Sage.Kernel.aggN x0 x1 x2) (W := x3) (b := x4)
    (fun n k => ((aggN_apply x0 x1 x2 n k).trans (Cert.Sage.Bridge.normalised_eq x0 x1 x2 n k)).symm)

theorem algebraic : Cert.algebraic_KernelIdeal_ReferenceIdeal := by
  intro m ρ m' ρ' _ hagree
  refine ⟨fun c => Cert.Sage.Kernel.result m c, Cert.Sage.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v34_eq _ _ _ _ _).trans (results_agree _ _ _ _ _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
